-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_

variable [Facts]

def fn {F : FTy → Type} [FloatOps F] (main_arg0 : FVec F S4x4096x4096 .f32) (main_arg1 : FVec F S4096x16 .f32) (main_arg2 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  main_v13
-- ==== Kernel.lean ====
abbrev S4x4096x4096 : Shape := ⟨3, ![4, 4096, 4096]⟩
abbrev S4096x16 : Shape := ⟨2, ![4096, 16]⟩
abbrev S16384x4096 : Shape := ⟨2, ![16384, 4096]⟩
abbrev S16x4096 : Shape := ⟨2, ![16, 4096]⟩
abbrev S256x4096 : Shape := ⟨2, ![256, 4096]⟩
abbrev S256x16 : Shape := ⟨2, ![256, 16]⟩

abbrev nBuf : Space → Nat
  | .hbm => 9
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x16, .f32⟩
  | .hbm, ⟨2, _⟩ => ⟨S4096x16, .f32⟩
  | .hbm, ⟨3, _⟩ => ⟨S16384x4096, .f32⟩
  | .hbm, ⟨4, _⟩ => ⟨S4096x16, .bf16⟩
  | .hbm, ⟨5, _⟩ => ⟨S16x4096, .f32⟩
  | .hbm, ⟨6, _⟩ => ⟨S16x4096, .bf16⟩
  | .hbm, ⟨7, _⟩ => ⟨S16384x4096, .f32⟩
  | .hbm, ⟨8, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S4096x16, .bf16⟩
  | .local _ .vmem, ⟨3, _⟩ => ⟨S16x4096, .bf16⟩
  | .local _ .vmem, ⟨4, _⟩ => ⟨S256x4096, .f32⟩
  | .local _ .vmem, ⟨5, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x4096_S16384x4096 : S4x4096x4096.ShapeCasts S16384x4096
  bitsLt_bf16_f32 : FTy.bits .bf16 < FTy.bits .f32
  transposes_S4096x16_S16x4096_1_0 : S4096x16.Transposes [1, 0] S16x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  shapeCasts_S16384x4096_S4x4096x4096 : S16384x4096.ShapeCasts S4x4096x4096
  dot_S256x4096_S4096x16_S256x16_1_0_0_1_n_n_wf : DotDims.WF S256x4096 S4096x16 S256x16 [1] [0] [0] [1] [] []
  dot_S256x16_S16x4096_S256x4096_1_0_0_1_n_n_wf : DotDims.WF S256x16 S16x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S4096x16.size a
  hwx0_1 : ∀ i : grid0.Coords, EltTy.bits .bf16 = 32 ∨ (Rect.block (s := S4096x16) S4096x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .bf16 = 32 ∨ (Rect.block (s := S16x4096) S16x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S256x4096_S4096x16_S256x16_1_0_0_1_n_n : DotDims S256x4096 S4096x16 S256x16 where
  lhsContracting := [1]
  rhsContracting := [0]
  lhsNonContracting := [0]
  rhsNonContracting := [1]
  lhsBatch := []
  rhsBatch := []
  wf := dot_S256x4096_S4096x16_S256x16_1_0_0_1_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x16 : Shape := ⟨2, ![4096, 16]⟩
abbrev S16x4096 : Shape := ⟨2, ![16, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x16, .f32⟩
  | .hbm, ⟨2, _⟩ => ⟨S4096x16, .f32⟩
  | .hbm, ⟨3, _⟩ => ⟨S16x4096, .f32⟩
  | .hbm, ⟨4, _⟩ => ⟨S4096x4096, .f32⟩
  | .hbm, ⟨5, _⟩ => ⟨S4x4096x4096, .f32⟩
  | .hbm, ⟨6, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S4096x16_S16x4096_1_0 : S4096x16.Transposes [1, 0] S16x4096
  dot_S4096x16_S16x4096_S4096x4096_1_0_0_1_n_n_wf : DotDims.WF S4096x16 S16x4096 S4096x4096 [1] [0] [0] [1] [] []
  dot_S4x4096x4096_S4096x4096_S4x4096x4096_2_1_01_0_n_n_wf : DotDims.WF S4x4096x4096 S4096x4096 S4x4096x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.Exchange.lean ====
/-
  The one algebraic law of this certificate, over abstract finite index types.

  The kernel contracts the input row with the right factor first and the small rank-`R` result with the left
  factor second; the reference forms the full `D × D` product of the two factors first and contracts the input
  row with it. For real entries the two orders agree: both are the double sum of `e d * B d r * A r` over
  `d` and `r`, by distributivity and an exchange of the two finite sums. On the extended reals distributivity
  fails at the infinities, so the law is stated for entries that are coercions of reals; the sums and products of
  coercions are then coercions of the real sums and products.
-/
import Idealize.ShloMosaic.PureOps.Ideal

open scoped BigOperators

namespace Cert.LowRank

/-- The coercion of a finite real sum into the extended reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange over the reals: contracting `e` with `B` and the result with `A` is contracting `e` with the
    product of `A` and `B`. -/
theorem exchange_real {D R : Type*} [Fintype D] [Fintype R] (e : D → ℝ) (B : D → R → ℝ) (A : R → ℝ) :
    ∑ r, (∑ d, e d * B d r) * A r = ∑ d, e d * ∑ r, A r * B d r := by
  simp only [Finset.sum_mul, Finset.mul_sum]
  rw [Finset.sum_comm]
  exact Finset.sum_congr rfl fun d _ => Finset.sum_congr rfl fun r _ => by ring

/-- The same on the extended reals, for entries that are real. -/
theorem exchange {D R : Type*} [Fintype D] [Fintype R] (e : D → EReal) (B : D → R → EReal) (A : R → EReal)
    (he : ∀ d, ∃ x : ℝ, e d = x) (hB : ∀ d r, ∃ x : ℝ, B d r = x) (hA : ∀ r, ∃ x : ℝ, A r = x) :
    ∑ r, (∑ d, e d * B d r) * A r = ∑ d, e d * ∑ r, A r * B d r := by
  choose e' he' using he
  choose B' hB' using hB
  choose A' hA' using hA
  simp only [he', hB', hA', ← EReal.coe_mul, ← coe_sum]
  exact congrArg _ (exchange_real e' B' A')

end Cert.LowRank
-- ==== Proof.Spec.lean ====
/-
  The result both programs compute, as one function of the three inputs.

  For an input `e` of shape [4, 4096, 4096] and factors `A`, `B` of shape [4096, 16], entry `(b, s, j)` of the result is
  `e (b, s, j)` plus the rank-16 correction: the sum over `r` of (the input row `(b, s, ·)` contracted with column `r` of
  `B`) times `A (j, r)`. That is the order the kernel computes it in. The reference contracts the row with row `j` of the
  full product `A · Bᵀ` instead; for real entries the two agree by the exchange of the two contractions.
-/
import proofs.«173469_j10359461118153_2_alg».proof.Proof.Exchange
import Idealize.ShloMosaic.Lib.ValueIdx

noncomputable section

open scoped BigOperators

namespace Cert.LowRank

open Idealize.ShloMosaic Idealize.ShloMosaic.ValueIdx

/-- The input's shape and a factor's shape. -/
abbrev SE : Shape := ⟨3, ![4, 4096, 4096]⟩
abbrev SF : Shape := ⟨2, ![4096, 16]⟩

/-- The result, with the correction contracted through the rank axis last. -/
def lowRank (e : SE.Idx → EReal) (A B : SF.Idx → EReal) : SE.Idx → EReal := fun i =>
  e i + ∑ r : Fin 16, (∑ d : Fin 4096, e (ix3 (n0 := 4) (n1 := 4096) (n2 := 4096) (i 0) (i 1) d)
      * B (ix2 (n0 := 4096) (n1 := 16) d r)) * A (ix2 (n0 := 4096) (n1 := 16) (i 2) r)

/-- For real entries, the same with the row contracted against the full product of the two factors. -/
theorem lowRank_apply_full (e : SE.Idx → EReal) (A B : SF.Idx → EReal) (he : ∀ i, ∃ x : ℝ, e i = x)
    (hA : ∀ i, ∃ x : ℝ, A i = x) (hB : ∀ i, ∃ x : ℝ, B i = x) (i : SE.Idx) :
    lowRank e A B i = e i + ∑ d : Fin 4096, e (ix3 (n0 := 4) (n1 := 4096) (n2 := 4096) (i 0) (i 1) d)
      * ∑ r : Fin 16, A (ix2 (n0 := 4096) (n1 := 16) (i 2) r) * B (ix2 (n0 := 4096) (n1 := 16) d r) :=
  congrArg (e i + ·) (exchange (fun d : Fin 4096 => e (ix3 (n0 := 4) (n1 := 4096) (n2 := 4096) (i 0) (i 1) d))
    (fun (d : Fin 4096) (r : Fin 16) => B (ix2 (n0 := 4096) (n1 := 16) d r))
    (fun r : Fin 16 => A (ix2 (n0 := 4096) (n1 := 16) (i 2) r)) (fun _ => he _) (fun _ _ => hB _) (fun _ => hA _))

end Cert.LowRank

end
-- ==== Proof.Finite.lean ====
/-
  What the precondition gives: every entry of the three inputs is a real number.

  The precondition is the conjunction, over the three inputs, of "every entry's absolute value compares below +inf".
  On the extended reals the absolute value of `x` is `max x (-x)`, which is `+inf` exactly at the two infinities, so an
  entry that passes the comparison is the coercion of a real. The exchange of the two contractions needs exactly this.
-/
import proofs.«173469_j10359461118153_2_alg».proof.Pre_finite_inputs
import proofs.«173469_j10359461118153_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Cert.Pre_finite_inputs

/-- An extended real whose absolute value compares below the f32 `+inf` pattern is a real. -/
theorem real_of_abs_lt_inf (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- The scalar shape has one index. -/
instance : Subsingleton S_.Idx := ⟨fun a b => funext fun d => d.elim0⟩

variable [Cert.Pre_finite_inputs.Facts]

/-- The precondition all ones: every entry of the input, of the left factor and of the right factor is real. -/
theorem entries_real (a0 : FVec Ideal S4x4096x4096 .f32) (a1 a2 : FVec Ideal S4096x16 .f32)
    (h : fn (F := Ideal) a0 a1 a2 = fun _ => 1#1) :
    (∀ i, ∃ r : ℝ, a0 i = r) ∧ (∀ i, ∃ r : ℝ, a1 i = r) ∧ (∀ i, ∃ r : ℝ, a2 i = r) := by
  have h' := congrFun h ValueIdx.ix0
  dsimp only [fn] at h'
  obtain ⟨h01, h2⟩ := IntOp.andi_eq_one.mp h'
  obtain ⟨h0, h1⟩ := IntOp.andi_eq_one.mp h01
  exact ⟨fun i => real_of_abs_lt_inf _ (Host.reduce_andi_all _ _ _ _ _ h0 i),
    fun i => real_of_abs_lt_inf _ (Host.reduce_andi_all _ _ _ _ _ h1 i),
    fun i => real_of_abs_lt_inf _ (Host.reduce_andi_all _ _ _ _ _ h2 i)⟩

end Cert.Finite

end
-- ==== Proof.RefValue.lean ====
/-
  The reference's result, read at an index.

  The reference transposes the right factor, forms the full product `U = A · Bᵀ` (entry `(j, d)` is the sum over the
  rank index `r` of `A (j, r) * B (d, r)`), contracts each input row with it along the feature axis, and adds the
  input back. So its entry at `(b, s, j)` is `e (b, s, j)` plus the sum over `d` of `e (b, s, d)` times the sum over
  `r` of `A (j, r) * B (d, r)`. This module states that, from the generated read-at-an-index lemmas of the four
  host operations, with every operand index written out in coordinates.
-/
import proofs.«173469_j10359461118153_2_alg».proof.Proof.Gen.ReferenceIdeal.Read

noncomputable section

open scoped BigOperators

namespace Cert.ReferenceIdeal.RefValue

open Cert.ReferenceIdeal Cert.ReferenceIdeal.Read Idealize.ShloMosaic Idealize.ShloMosaic.ValueIdx

/-- The reference's result at `(b, s, j)`: the input entry plus the input row `(b, s, ·)` contracted with row `j` of the
    full product of the two factors. -/
theorem result_apply (x0 : (⟨S4x4096x4096, .f32⟩ : BufTy).Contents (Elt Ideal))
    (x1 x2 : (⟨S4096x16, .f32⟩ : BufTy).Contents (Elt Ideal)) (i : S4x4096x4096.Idx) :
    val_main_v3 (F := Ideal) x0 x1 x2 i
      = x0 i + ∑ d : Fin 4096, x0 (ix3 (n0 := 4) (n1 := 4096) (n2 := 4096) (i 0) (i 1) d)
          * ∑ r : Fin 16, x1 (ix2 (n0 := 4096) (n1 := 16) (i 2) r) * x2 (ix2 (n0 := 4096) (n1 := 16) d r) := by
  have e1 : ∀ d : Fin 4096, lidx_main_v2 i d = ix3 (n0 := 4) (n1 := 4096) (n2 := 4096) (i 0) (i 1) d := fun d =>
    funext fun a => Fin.ext (by match a with | ⟨0, _⟩ => rfl | ⟨1, _⟩ => rfl | ⟨2, _⟩ => rfl)
  have e2 : ∀ (d : Fin 4096) (r : Fin 16), lidx_main_v1 (ridx_main_v2 i d) r = ix2 (n0 := 4096) (n1 := 16) (i 2) r :=
    fun d r => funext fun a => Fin.ext (by match a with | ⟨0, _⟩ => rfl | ⟨1, _⟩ => rfl)
  have e3 : ∀ (d : Fin 4096) (r : Fin 16), idx_main_v0 (ridx_main_v1 (ridx_main_v2 i d) r) = ix2 (n0 := 4096) (n1 := 16) d r :=
    fun d r => funext fun a => Fin.ext (by match a with | ⟨0, _⟩ => rfl | ⟨1, _⟩ => rfl)
  rw [val_main_v3_apply, val_main_v2_apply, Ideal.addf_def]
  refine congrArg (x0 i + ·) (Finset.sum_congr rfl fun d _ => ?_)
  rw [val_main_v1_apply, e1]
  refine congrArg (x0 _ * ·) (Finset.sum_congr rfl fun r _ => ?_)
  rw [val_main_v0_apply, e2, e3]

end Cert.ReferenceIdeal.RefValue

end
-- ==== Proof.Payload.lean ====
/-
  The kernel body's arithmetic, read at an index of the block.

  At a grid point the body holds a block `x0` of 256 input rows, the whole right factor `x1` (4096 × 16) and the whole
  transposed left factor `x2` (16 × 4096). It multiplies the rows by the right factor into a zero accumulator — entry
  `(p, r)` is the sum over `d` of `x0 (p, d) * x1 (d, r)` —, multiplies that 256 × 16 result by the transposed left factor
  into a zero accumulator — entry `(p, q)` is the sum over `r` of the first product's `(p, r)` times `x2 (r, q)` —, and
  adds the input block back. The changes of float format in between are the identity on the extended reals, and the
  shape casts are between equal shapes.
-/
import proofs.«173469_j10359461118153_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The two products' operand indices, coordinate by coordinate -/

theorem rows_lhs0 (i : S256x16.Idx) (k : dot_S256x4096_S4096x16_S256x16_1_0_0_1_n_n.contr.Idx) :
    (dot_S256x4096_S4096x16_S256x16_1_0_0_1_n_n.lhsIdx i k 0).val = (i 0).val := by
  unfold DotDims.lhsIdx
  rw [dif_neg (show ¬(0 : Fin S256x4096.rank) ∈ dot_S256x4096_S4096x16_S256x16_1_0_0_1_n_n.lhsBatch by decide),
    dif_pos (show (0 : Fin S256x4096.rank) ∈ dot_S256x4096_S4096x16_S256x16_1_0_0_1_n_n.lhsNonContracting by decide)]
  rfl
theorem rows_lhs1 (i : S256x16.Idx) (k : dot_S256x4096_S4096x16_S256x16_1_0_0_1_n_n.contr.Idx) :
    (dot_S256x4096_S4096x16_S256x16_1_0_0_1_n_n.lhsIdx i k 1).val = (k ⟨0, by decide⟩).val :=
  dot_S256x4096_S4096x16_S256x16_1_0_0_1_n_n.lhsIdx_val_of_single rfl i k
theorem rows_rhs0 (i : S256x16.Idx) (k : dot_S256x4096_S4096x16_S256x16_1_0_0_1_n_n.contr.Idx) :
    (dot_S256x4096_S4096x16_S256x16_1_0_0_1_n_n.rhsIdx i k 0).val = (k ⟨0, by decide⟩).val :=
  dot_S256x4096_S4096x16_S256x16_1_0_0_1_n_n.rhsIdx_val_of_single rfl i k
theorem rows_rhs1 (i : S256x16.Idx) (k : dot_S256x4096_S4096x16_S256x16_1_0_0_1_n_n.contr.Idx) :
    (dot_S256x4096_S4096x16_S256x16_1_0_0_1_n_n.rhsIdx i k 1).val = (i 1).val := by
  unfold DotDims.rhsIdx
  rw [dif_neg (show ¬(1 : Fin S4096x16.rank) ∈ dot_S256x4096_S4096x16_S256x16_1_0_0_1_n_n.rhsBatch by decide),
    dif_pos (show (1 : Fin S4096x16.rank) ∈ dot_S256x4096_S4096x16_S256x16_1_0_0_1_n_n.rhsNonContracting by decide)]
  rfl

theorem back_lhs0 (i : S256x4096.Idx) (k : dot_S256x16_S16x4096_S256x4096_1_0_0_1_n_n.contr.Idx) :
    (dot_S256x16_S16x4096_S256x4096_1_0_0_1_n_n.lhsIdx i k 0).val = (i 0).val := by
  unfold DotDims.lhsIdx
  rw [dif_neg (show ¬(0 : Fin S256x16.rank) ∈ dot_S256x16_S16x4096_S256x4096_1_0_0_1_n_n.lhsBatch by decide),
    dif_pos (show (0 : Fin S256x16.rank) ∈ dot_S256x16_S16x4096_S256x4096_1_0_0_1_n_n.lhsNonContracting by decide)]
  rfl
theorem back_lhs1 (i : S256x4096.Idx) (k : dot_S256x16_S16x4096_S256x4096_1_0_0_1_n_n.contr.Idx) :
    (dot_S256x16_S16x4096_S256x4096_1_0_0_1_n_n.lhsIdx i k 1).val = (k ⟨0, by decide⟩).val :=
  dot_S256x16_S16x4096_S256x4096_1_0_0_1_n_n.lhsIdx_val_of_single rfl i k
theorem back_rhs0 (i : S256x4096.Idx) (k : dot_S256x16_S16x4096_S256x4096_1_0_0_1_n_n.contr.Idx) :
    (dot_S256x16_S16x4096_S256x4096_1_0_0_1_n_n.rhsIdx i k 0).val = (k ⟨0, by decide⟩).val :=
  dot_S256x16_S16x4096_S256x4096_1_0_0_1_n_n.rhsIdx_val_of_single rfl i k
theorem back_rhs1 (i : S256x4096.Idx) (k : dot_S256x16_S16x4096_S256x4096_1_0_0_1_n_n.contr.Idx) :
    (dot_S256x16_S16x4096_S256x4096_1_0_0_1_n_n.rhsIdx i k 1).val = (i 1).val := by
  unfold DotDims.rhsIdx
  rw [dif_neg (show ¬(1 : Fin S16x4096.rank) ∈ dot_S256x16_S16x4096_S256x4096_1_0_0_1_n_n.rhsBatch by decide),
    dif_pos (show (1 : Fin S16x4096.rank) ∈ dot_S256x16_S16x4096_S256x4096_1_0_0_1_n_n.rhsNonContracting by decide)]
  rfl

/-! ## The two products at an index -/

/-- The rows times the right factor, into a zero accumulator: entry `(p, r)` is the sum over the feature axis. -/
theorem rows_apply (x : FVec Ideal S256x4096 .bf16) (y : FVec Ideal S4096x16 .bf16) (p : Fin 256) (r : Fin 16) :
    matmul dot_S256x4096_S4096x16_S256x16_1_0_0_1_n_n none x y (constant S256x16 .f32 0x00000000#32) (ix2 p r)
      = ∑ d : Fin 4096, x (ix2 p d) * y (ix2 d r) := by
  simp only [matmul]
  rw [Ideal.matmul_constant_zero_apply,
    ← Equiv.sum_comp (contrEquiv1 dot_S256x4096_S4096x16_S256x16_1_0_0_1_n_n 4096 rfl rfl).symm]
  refine Finset.sum_congr rfl fun d _ => ?_
  have hd := contrEquiv1_symm_val dot_S256x4096_S4096x16_S256x16_1_0_0_1_n_n 4096 rfl rfl d
  have el : dot_S256x4096_S4096x16_S256x16_1_0_0_1_n_n.lhsIdx (ix2 p r)
      ((contrEquiv1 dot_S256x4096_S4096x16_S256x16_1_0_0_1_n_n 4096 rfl rfl).symm d) = ix2 p d :=
    funext fun a => Fin.ext (by
      match a with
      | ⟨0, _⟩ => exact rows_lhs0 _ _
      | ⟨1, _⟩ => exact (rows_lhs1 _ _).trans hd)
  have er : dot_S256x4096_S4096x16_S256x16_1_0_0_1_n_n.rhsIdx (ix2 p r)
      ((contrEquiv1 dot_S256x4096_S4096x16_S256x16_1_0_0_1_n_n 4096 rfl rfl).symm d) = ix2 d r :=
    funext fun a => Fin.ext (by
      match a with
      | ⟨0, _⟩ => exact (rows_rhs0 _ _).trans hd
      | ⟨1, _⟩ => exact rows_rhs1 _ _)
  rw [el, er]

/-- The 256 × 16 result times the transposed left factor, into a zero accumulator: entry `(p, q)` is the sum over the
    rank axis. -/
theorem back_apply (x : FVec Ideal S256x16 .bf16) (y : FVec Ideal S16x4096 .bf16) (p : Fin 256) (q : Fin 4096) :
    matmul dot_S256x16_S16x4096_S256x4096_1_0_0_1_n_n none x y (constant S256x4096 .f32 0x00000000#32) (ix2 p q)
      = ∑ r : Fin 16, x (ix2 p r) * y (ix2 r q) := by
  simp only [matmul]
  rw [Ideal.matmul_constant_zero_apply,
    ← Equiv.sum_comp (contrEquiv1 dot_S256x16_S16x4096_S256x4096_1_0_0_1_n_n 16 rfl rfl).symm]
  refine Finset.sum_congr rfl fun r _ => ?_
  have hr := contrEquiv1_symm_val dot_S256x16_S16x4096_S256x4096_1_0_0_1_n_n 16 rfl rfl r
  have el : dot_S256x16_S16x4096_S256x4096_1_0_0_1_n_n.lhsIdx (ix2 p q)
      ((contrEquiv1 dot_S256x16_S16x4096_S256x4096_1_0_0_1_n_n 16 rfl rfl).symm r) = ix2 p r :=
    funext fun a => Fin.ext (by
      match a with
      | ⟨0, _⟩ => exact back_lhs0 _ _
      | ⟨1, _⟩ => exact (back_lhs1 _ _).trans hr)
  have er : dot_S256x16_S16x4096_S256x4096_1_0_0_1_n_n.rhsIdx (ix2 p q)
      ((contrEquiv1 dot_S256x16_S16x4096_S256x4096_1_0_0_1_n_n 16 rfl rfl).symm r) = ix2 r q :=
    funext fun a => Fin.ext (by
      match a with
      | ⟨0, _⟩ => exact (back_rhs0 _ _).trans hr
      | ⟨1, _⟩ => exact back_rhs1 _ _)
  rw [el, er]

/-! ## The stored block at an index -/

/-- What the body stores at `(p, q)` of the output block: the input entry plus the rank-16 correction. -/
theorem pay_apply (x0 : Vec Ideal S256x4096 .f32) (x1 : Vec Ideal S4096x16 .bf16) (x2 : Vec Ideal S16x4096 .bf16)
    (p : Fin 256) (q : Fin 4096) :
    k0_pay1 (F := Ideal) x0 x1 x2 (ix2 p q)
      = x0 (ix2 p q) + ∑ r : Fin 16, (∑ d : Fin 4096, x0 (ix2 p d) * x1 (ix2 d r)) * x2 (ix2 r q) := by
  unfold k0_pay1
  simp only [shapeCast_self]
  refine congrArg (x0 (ix2 p q) + ·) ?_
  refine (back_apply _ x2 p q).trans ?_
  refine Finset.sum_congr rfl fun r _ => ?_
  refine congrArg (· * x2 (ix2 r q)) ?_
  exact rows_apply _ x1 p r

end Cert.KernelIdeal.Payload

end
-- ==== Proof.Blocks.lean ====
/-
  From the blocks to the region's output array.

  The grid has 64 points. Point `t` stages rows `256 t … 256 t + 255` of the flattened input (all 4096 columns), the
  whole right factor and the whole transposed left factor, and writes back the same rows of the output. Each row of
  the result depends only on the same row of the input and on the two factors, so what point `t` writes back is
  rows `256 t …` of ONE function of the three arrays the region finds (`rowsOut`), and since the 64 row blocks tile
  the 16384 rows the output array ends holding that function.
-/
import proofs.«173469_j10359461118153_2_alg».proof.Proof.Gen.KernelIdeal.Frame
import proofs.«173469_j10359461118153_2_alg».proof.Proof.Payload
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The region's output as one function of the flattened input `E`, the right factor `Bf` and the transposed left
    factor `At`: entry `(p, q)` is `E (p, q)` plus the sum over the rank index `r` of (row `p` of `E` contracted with
    column `r` of `Bf`) times `At (r, q)`. -/
def rowsOut (E : Vec Ideal S16384x4096 .f32) (Bf : Vec Ideal S4096x16 .bf16) (At : Vec Ideal S16x4096 .bf16) :
    Vec Ideal S16384x4096 .f32 :=
  fun i => E i + ∑ r : Fin 16, (∑ d : Fin 4096, E (ix2 (n0 := 16384) (n1 := 4096) (i 0) d) * Bf (ix2 d r))
    * At (ix2 (n0 := 16) (n1 := 4096) r (i 1))

/-- One point, over plain variables: if the staged row block `x0` is rows `row0 …` of `E` and the two staged factors
    are `Bf` and `At`, the body's stored block at `y` is `rowsOut` at row `row0 + y 0`, column `y 1`. -/
theorem block_eq (E : Vec Ideal S16384x4096 .f32) (Bf : Vec Ideal S4096x16 .bf16) (At : Vec Ideal S16x4096 .bf16)
    (x0 : Vec Ideal S256x4096 .f32) (x1 : Vec Ideal S4096x16 .bf16) (x2 : Vec Ideal S16x4096 .bf16) (row0 : Nat)
    (h0 : ∀ (p : Fin 256) (d : Fin 4096) (k : S16384x4096.Idx), (k 0).val = row0 + p.val → (k 1).val = d.val →
      x0 (ix2 p d) = E k)
    (h1 : x1 = Bf) (h2 : x2 = At)
    (y : S256x4096.Idx) (i : S16384x4096.Idx) (hi0 : (i 0).val = row0 + (y 0).val) (hi1 : (i 1).val = (y 1).val) :
    k0_pay1 (F := Ideal) x0 x1 x2 y = rowsOut E Bf At i := by
  obtain ⟨p, q, rfl⟩ : ∃ (p : Fin 256) (q : Fin 4096), y = ix2 p q := ⟨y 0, y 1, eq_ix2 y⟩
  subst h1 h2
  rw [Payload.pay_apply]
  unfold rowsOut
  have eq : (ix2 (n0 := 16) (n1 := 4096) · (i 1)) = (ix2 (n0 := 16) (n1 := 4096) · q) :=
    funext fun r => funext fun a => Fin.ext (by match a with | ⟨0, _⟩ => rfl | ⟨1, _⟩ => exact hi1)
  rw [h0 p q i hi0 hi1]
  refine congrArg (E i + ·) (Finset.sum_congr rfl fun r _ => ?_)
  rw [congrFun eq r]
  refine congrArg (· * x2 (ix2 r q)) (Finset.sum_congr rfl fun d _ => ?_)
  rw [h0 p d (ix2 (n0 := 16384) (n1 := 4096) (i 0) d) hi0 rfl]

variable (m : (ℓ : Loc nD τ sig) → Buf (Elt Ideal) ℓ)

theorem hz : (![0, 0] : Fin 2 → Nat) = fun _ => 0 := funext fun a => by fin_cases a <;> rfl

/-- The printed index maps over the 64 points: the input rows and the output rows move together, block `t` at point `t`;
    every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `rowsOut` of the arrays the region finds. -/
theorem flushed_eq (c : Dev nD) (t : Fin cfg0.N) :
    (dats m 0 c).flushed 3 t
      = ((cfg0.win 3).blk t).view.read (Elt Ideal) (rowsOut (V m c main_v0) (V m c main_v1) (V m c main_v3)) := by
  show (cfg0.win 3).cut (grid0.coords t) ((dats m 0 c).after 3 t) = _
  rw [after0_3]
  unfold out0_3
  rw [View.canon_unit_zero hz]
  simp only [View.ld_unit_zero (S := S256x4096) hz, View.ld_unit_zero (S := S4096x16) hz, View.ld_unit_zero (S := S16x4096) hz]
  obtain ⟨e00, e01, e10, e11, e20, e21, e30, e31⟩ := idx_facts t
  funext j
  show k0_pay1 (F := Ideal) (iblk m c 0 t) (iblk m c 1 t) (iblk m c 2 t) j
    = rowsOut (V m c main_v0) (V m c main_v1) (V m c main_v3) (((cfg0.win 3).blk t).view.emb j)
  refine block_eq (V m c main_v0) (V m c main_v1) (V m c main_v3) (iblk m c 0 t) (iblk m c 1 t) (iblk m c 2 t)
    (t.val * 256) ?_ ?_ ?_ j (((cfg0.win 3).blk t).view.emb j) ?_ ?_
  · intro p d k hk0 hk1
    show V m c main_v0 (((cfg0.win 0).blk t).view.emb (ix2 p d)) = V m c main_v0 k
    refine congrArg (V m c main_v0) (funext fun a => Fin.ext ?_)
    match a with
    | ⟨0, _⟩ => show win0_0.index t (0 : Fin 2) * 256 + 1 * p.val = (k 0).val; rw [e00, hk0]; omega
    | ⟨1, _⟩ => show win0_0.index t (1 : Fin 2) * 4096 + 1 * d.val = (k 1).val; rw [e01, hk1]; omega
  · funext y
    show V m c main_v1 (((cfg0.win 1).blk t).view.emb y) = V m c main_v1 y
    refine congrArg (V m c main_v1) (funext fun a => Fin.ext ?_)
    match a with
    | ⟨0, _⟩ => show win0_1.index t (0 : Fin 2) * 4096 + 1 * (y 0).val = (y 0).val; rw [e10]; omega
    | ⟨1, _⟩ => show win0_1.index t (1 : Fin 2) * 16 + 1 * (y 1).val = (y 1).val; rw [e11]; omega
  · funext y
    show V m c main_v3 (((cfg0.win 2).blk t).view.emb y) = V m c main_v3 y
    refine congrArg (V m c main_v3) (funext fun a => Fin.ext ?_)
    match a with
    | ⟨0, _⟩ => show win0_2.index t (0 : Fin 2) * 16 + 1 * (y 0).val = (y 0).val; rw [e20]; omega
    | ⟨1, _⟩ => show win0_2.index t (1 : Fin 2) * 4096 + 1 * (y 1).val = (y 1).val; rw [e21]; omega
  · show win0_3.index t (0 : Fin 2) * 256 + 1 * (j 0).val = t.val * 256 + (j 0).val; rw [e30]; omega
  · show win0_3.index t (1 : Fin 2) * 4096 + 1 * (j 1).val = (j 1).val; rw [e31]; omega

/-- An index of the output array is in point `t`'s block iff each coordinate is in the block's range on its axis. -/
theorem mem_blk (t : Fin cfg0.N) (i : S16384x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v4).slice (win0_3.rect t)).set ↔ _
  rw [View.set_slice_whole, Rect.mem_set_unit]
  exact Iff.rfl

/-- The 64 row blocks tile the 16384 rows: row `r` is in the block of point `r / 256`. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : grid0.N = 64 := N_0
  obtain ⟨t, ht⟩ : ∃ t : Fin cfg0.N, t.val = (i 0).val / 256 :=
    ⟨⟨(i 0).val / 256, by show _ < grid0.N; rw [hN]; omega⟩, rfl⟩
  refine ⟨t, flush0_3 t, ?_⟩
  rw [mem_blk]
  obtain ⟨-, -, -, -, -, -, e30, e31⟩ := idx_facts t
  intro a
  match a with
  | ⟨0, _⟩ =>
    show win0_3.index t (0 : Fin 2) * 256 ≤ (i 0).val ∧ (i 0).val < win0_3.index t (0 : Fin 2) * 256 + 256
    rw [e30, ht]; omega
  | ⟨1, _⟩ =>
    show win0_3.index t (1 : Fin 2) * 4096 ≤ (i 1).val ∧ (i 1).val < win0_3.index t (1 : Fin 2) * 4096 + 4096
    rw [e31]; omega

/-- The output array after the region: `rowsOut` of the three arrays the region finds. -/
theorem region_out (c : Dev nD) :
    (dats m 0 c).arrAt 3 cfg0.N = rowsOut (V m c main_v0) (V m c main_v1) (V m c main_v3) :=
  (dats m 0 c).arrAt_eq_of_cover 3 (rowsOut (V m c main_v0) (V m c main_v1) (V m c main_v3))
    (fun t _ => flushed_eq m c t) cover

end Cert.KernelIdeal.Blocks

end
-- ==== Proof.Whole.lean ====
/-
  The kernel program's result, as a function of its three arguments.

  Around the region the program flattens the input to [16384, 4096] (row `b * 4096 + s` of the flat array is row
  `(b, s)` of the input), hands the right factor over unchanged up to a change of float format, and hands the left
  factor over transposed; after the region it reshapes the [16384, 4096] output back to [4, 4096, 4096]. Reading each of
  these at an index turns the region's output (`Blocks.rowsOut` of the arrays the region finds) into `LowRank.lowRank` of
  the arguments.
-/
import proofs.«173469_j10359461118153_2_alg».proof.Proof.Gen.KernelIdeal.Frame
import proofs.«173469_j10359461118153_2_alg».proof.Proof.Blocks
import proofs.«173469_j10359461118153_2_alg».proof.Proof.Spec
import Idealize.ShloMosaic.Lib.Pipeline.Value
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx

/-! ## The layout operations at an index -/

/-- The flattened input at row `b * 4096 + s`, column `d` is the input at `(b, s, d)`. -/
theorem flat_apply (x : S4x4096x4096.Idx → EReal) (b : Fin 4) (s d : Fin 4096) (k : S16384x4096.Idx)
    (hk0 : (k 0).val = b.val * 4096 + s.val) (hk1 : (k 1).val = d.val) :
    shapeCast S16384x4096 x shapeCasts_S4x4096x4096_S16384x4096 k = x (ix3 b s d) :=
  shapeCast_apply x shapeCasts_S4x4096x4096_S16384x4096 k (ix3 b s d) (by
    rw [Shape.rowMajor_val_three, Shape.rowMajor_val_two]
    show (b.val * 4096 + s.val) * 4096 + d.val = (k 0).val * 4096 + (k 1).val
    rw [hk0, hk1])

/-- The output reshaped back: entry `(b, s, j)` is the flat output at row `b * 4096 + s`, column `j`. -/
theorem unflat_apply (y : S16384x4096.Idx → EReal) (i : S4x4096x4096.Idx) (k : S16384x4096.Idx)
    (hk0 : (k 0).val = (i 0).val * 4096 + (i 1).val) (hk1 : (k 1).val = (i 2).val) :
    shapeCast S4x4096x4096 y shapeCasts_S16384x4096_S4x4096x4096 i = y k :=
  shapeCast_apply y shapeCasts_S16384x4096_S4x4096x4096 i k (by
    rw [Shape.rowMajor_val_three, Shape.rowMajor_val_two]
    show (k 0).val * 4096 + (k 1).val = ((i 0).val * 4096 + (i 1).val) * 4096 + (i 2).val
    rw [hk0, hk1])

/-- The transposed left factor at `(r, j)` is the left factor at `(j, r)`. -/
theorem transposed_apply (x : S4096x16.Idx → EReal) (r : Fin 16) (j : Fin 4096) :
    transpose S16x4096 [1, 0] x transposes_S4096x16_S16x4096_1_0 (ix2 r j) = x (ix2 j r) :=
  transpose_apply [1, 0] x transposes_S4096x16_S16x4096_1_0 (ix2 r j) (ix2 j r) (fun b => match b with
    | ⟨0, _⟩ => rfl
    | ⟨1, _⟩ => rfl)

variable (m : (ℓ : Loc nD τ sig) → Buf (Elt Ideal) ℓ) (ρ : Dev nD → PrngReg)

/-! ## The arrays the region finds -/

theorem V_flat (c : Dev nD) : (V m c main_v0 : S16384x4096.Idx → EReal)
    = shapeCast S16384x4096 (m ((c : Thread nD τ).loc main_arg0)) shapeCasts_S4x4096x4096_S16384x4096 := by
  show StableHlo.after hostOps0 (fun b => m (c, b)) (Proc.devRef .tc main_v0) = _
  after_results
  rfl

theorem V_right (c : Dev nD) : (V m c main_v1 : S4096x16.Idx → EReal)
    = truncf (F := Ideal) .bf16 (m ((c : Thread nD τ).loc main_arg2)) bitsLt_bf16_f32 := by
  show StableHlo.after hostOps0 (fun b => m (c, b)) (Proc.devRef .tc main_v1) = _
  after_results

theorem V_left (c : Dev nD) : (V m c main_v3 : S16x4096.Idx → EReal)
    = truncf (F := Ideal) .bf16 (transpose S16x4096 [1, 0] (m ((c : Thread nD τ).loc main_arg1)) transposes_S4096x16_S16x4096_1_0) bitsLt_bf16_f32 := by
  show StableHlo.after hostOps0 (fun b => m (c, b)) (Proc.devRef .tc main_v3) = _
  after_results

/-! ## The result -/

/-- The region's output, read at flat row `b * 4096 + s` and column `j`, in the arguments. -/
theorem rowsOut_apply (e : S4x4096x4096.Idx → EReal) (A B : S4096x16.Idx → EReal) (i : S4x4096x4096.Idx)
    (k : S16384x4096.Idx) (hk0 : (k 0).val = (i 0).val * 4096 + (i 1).val) (hk1 : (k 1).val = (i 2).val) :
    Blocks.rowsOut (shapeCast S16384x4096 e shapeCasts_S4x4096x4096_S16384x4096) (truncf (F := Ideal) .bf16 B bitsLt_bf16_f32)
        (truncf (F := Ideal) .bf16 (transpose S16x4096 [1, 0] A transposes_S4096x16_S16x4096_1_0) bitsLt_bf16_f32) k
      = LowRank.lowRank e A B i := by
  unfold Blocks.rowsOut LowRank.lowRank
  have ei : i = ix3 (n0 := 4) (n1 := 4096) (n2 := 4096) (i 0) (i 1) (i 2) := eq_ix3 i
  have ek : (ix2 (n0 := 16) (n1 := 4096) · (k 1)) = (ix2 (n0 := 16) (n1 := 4096) · (i 2)) :=
    funext fun r => funext fun a => Fin.ext (by match a with | ⟨0, _⟩ => rfl | ⟨1, _⟩ => exact hk1)
  rw [flat_apply e (i 0) (i 1) (i 2) k hk0 hk1, ← ei]
  refine congrArg (e i + ·) (Finset.sum_congr rfl fun r _ => ?_)
  rw [congrFun ek r]
  show (∑ d : Fin 4096, _ * B (ix2 d r)) * transpose S16x4096 [1, 0] A transposes_S4096x16_S16x4096_1_0 (ix2 r (i 2)) = _
  rw [transposed_apply A r (i 2)]
  refine congrArg (· * A (ix2 (i 2) r)) (Finset.sum_congr rfl fun d _ => ?_)
  rw [flat_apply e (i 0) (i 1) d (ix2 (n0 := 16384) (n1 := 4096) (k 0) d) hk0 rfl]

/-- The program's result buffer after the lines that follow the region: `lowRank` of the arguments. -/
theorem result_eq (c : Dev nD) :
    Pipeline.afterTail₀ cfgs (dats m) 0 (V0 m) [hostOps1] c main_v5
      = LowRank.lowRank (m ((c : Thread nD τ).loc main_arg0)) (m ((c : Thread nD τ).loc main_arg1))
          (m ((c : Thread nD τ).loc main_arg2)) := by
  have hw : Pipeline.withArrays (cfgs 0).spec c (V0 m c) (fun w => (dats m 0 c).arrAt w (cfgs 0).N) (Proc.devRef .tc main_v4)
      = Blocks.rowsOut (V m c main_v0) (V m c main_v1) (V m c main_v3) :=
    (Pipeline.withArrays_arr spec0 launch0.win.arr_inj c _ _ 3).trans (Blocks.region_out m c)
  unfold Pipeline.afterTail₀
  show StableHlo.after hostOps1 _ (Proc.devRef .tc main_v5) = _
  after_results
  rw [hw, V_flat, V_right, V_left]
  funext i
  have hi0 : (i 0).val < 4 := (i 0).isLt
  have hi1 : (i 1).val < 4096 := (i 1).isLt
  show shapeCast S4x4096x4096 _ shapeCasts_S16384x4096_S4x4096x4096 i = _
  rw [unflat_apply _ i (ix2 (n0 := 16384) (n1 := 4096) ⟨(i 0).val * 4096 + (i 1).val, by omega⟩ (i 2)) rfl rfl]
  exact rowsOut_apply _ _ _ i _ rfl rfl

/-- The run: every weakly fair execution terminates with the result buffer at `lowRank` of the arguments and the
    arguments unchanged. -/
theorem run : θ_run defs (onTc (τ := τ) (main (F := Ideal))) ⟨m, fun _ => 0, ρ⟩ fun r => ∀ c : Dev nD,
      r.2.mem ((c : Thread nD τ).loc main_v5)
        = LowRank.lowRank (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.lean ====
/-
  A rank-16 correction of a [4, 4096, 4096] input: `e + e · (A · Bᵀ)ᵀ`, against the same computed in another order.

  The reference forms the full 4096 × 4096 product `U = A · Bᵀ` of the two [4096, 16] factors and contracts every input
  row with it: entry `(b, s, j)` is `e (b, s, j)` plus the sum over `d` of `e (b, s, d)` times the sum over `r` of
  `A (j, r) * B (d, r)`. The kernel never forms `U`: over row blocks of the flattened input it contracts each row with
  `B` first (a [256, 16] result) and that with `Aᵀ` second, so its entry is `e (b, s, j)` plus the sum over `r` of (the sum
  over `d` of `e (b, s, d) * B (d, r)`) times `A (j, r)`. Its changes of float format are the identity on the extended
  reals. The two agree by distributivity and an exchange of the two finite sums, which hold for real entries and fail at
  the infinities; the precondition (every input entry finite) is what supplies real entries.

  The modules: `Exchange` (the law), `Spec` (the common result `lowRank` and its second form), `Finite` (real entries from
  the precondition), `RefValue` (the reference at an index), `Payload` (the kernel body at an index), `Blocks` (the
  region's output array from the 64 row blocks), `Whole` (the reshapes and the transpose around the region; the kernel
  program's run). The three frames are the generated ones; the idealization rewrote nothing.
-/
import proofs.«173469_j10359461118153_2_alg».proof.Defs
import proofs.«173469_j10359461118153_2_alg».proof.Proof.Gen.Kernel
import proofs.«173469_j10359461118153_2_alg».proof.Proof.Gen.Kernel.Skeleton
import proofs.«173469_j10359461118153_2_alg».proof.Proof.Gen.Kernel.Launch
import proofs.«173469_j10359461118153_2_alg».proof.Proof.Gen.Kernel.Points
import proofs.«173469_j10359461118153_2_alg».proof.Proof.Gen.Kernel.Frame
import proofs.«173469_j10359461118153_2_alg».proof.Proof.Gen.KernelIdeal
import proofs.«173469_j10359461118153_2_alg».proof.Proof.Gen.KernelIdeal.Skeleton
import proofs.«173469_j10359461118153_2_alg».proof.Proof.Gen.KernelIdeal.Launch
import proofs.«173469_j10359461118153_2_alg».proof.Proof.Gen.KernelIdeal.Points
import proofs.«173469_j10359461118153_2_alg».proof.Proof.Gen.KernelIdeal.Frame
import proofs.«173469_j10359461118153_2_alg».proof.Proof.Gen.ReferenceIdeal
import proofs.«173469_j10359461118153_2_alg».proof.Proof.Gen.Pre_finite_inputs
import proofs.«173469_j10359461118153_2_alg».proof.Proof.Gen.ReferenceIdeal.Run
import proofs.«173469_j10359461118153_2_alg».proof.Proof.Gen.ReferenceIdeal.Read
import proofs.«173469_j10359461118153_2_alg».proof.Proof.Spec
import proofs.«173469_j10359461118153_2_alg».proof.Proof.Finite
import proofs.«173469_j10359461118153_2_alg».proof.Proof.RefValue
import proofs.«173469_j10359461118153_2_alg».proof.Proof.Whole
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference launches no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result buffer at `lowRank` of the arguments: the kernel program by its run, the
    reference because its entry, the row contracted with the full product, is `lowRank`'s second form for real entries. -/
theorem algebraic : Cert.algebraic_KernelIdeal_ReferenceIdeal := by
  intro m ρ m' ρ' hpre hagree
  refine ⟨fun c => Cert.LowRank.lowRank (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v3_eq]
  obtain ⟨he, hA, hB⟩ := Cert.Finite.entries_real _ _ _ (hpre c)
  funext i
  rw [Cert.ReferenceIdeal.RefValue.result_apply]
  exact (Cert.LowRank.lowRank_apply_full _ _ _ he hA hB i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
